-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x100 : Shape := ⟨2, ![512, 100]⟩
abbrev S100 : Shape := ⟨1, ![100]⟩
abbrev S100x2 : Shape := ⟨2, ![100, 2]⟩
abbrev S2 : Shape := ⟨1, ![2]⟩
abbrev S512x2 : Shape := ⟨2, ![512, 2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S100x2 : S_.BroadcastsInDim S100x2 (![] : Fin 0 → Fin S100x2.rank)
  reducesTo_S100x2_S_d0_1 : S100x2.ReducesTo [0, 1] S_
  bcast_S_S2 : S_.BroadcastsInDim S2 (![] : Fin 0 → Fin S2.rank)
  reducesTo_S2_S_d0 : S2.ReducesTo [0] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_arg5 : FVec F S2 .f32) (main_arg6 : FVec F S512x2 .f32) (main_arg7 : FVec F S2 .f32) (main_v13 : IVec S_ 1) (main_v16 : IVec S100x2 1) : IVec S_ 1 :=
  let main_c_5 : IVec S_ 1 := constantI S_ 1 1#1
  let main_v17 : IVec S_ 1 := (fun x v => Host.reduce IntOp.andi x v reducesTo_S100x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S512x2 .f32 := Host.absf main_arg6
  let main_cst_8 : FVec F S_ .f32 := constant S_ .f32 0x7F800000#32
  let main_v25 : FVec F S512x2 .f32 := broadcastInDim S512x2 ![] bcast_S_S512x2 main_cst_8
  let main_v26 : IVec S512x2 1 := cmpf .olt main_v24 main_v25
  let main_c_9 : IVec S_ 1 := constantI S_ 1 1#1
  let main_v27 : IVec S_ 1 := (fun x v => Host.reduce IntOp.andi x v reducesTo_S512x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x100 .f32) (main_arg3 : FVec F S100 .f32) (main_arg4 : FVec F S100x2 .f32) (main_arg5 : FVec F S2 .f32) (main_arg6 : FVec F S512x2 .f32) (main_arg7 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x100 .f32 := Host.absf main_arg2
  let main_cst_0 : FVec F S_ .f32 := constant S_ .f32 0x7F800000#32
  let main_v5 : FVec F S512x100 .f32 := broadcastInDim S512x100 ![] bcast_S_S512x100 main_cst_0
  let main_v6 : IVec S512x100 1 := cmpf .olt main_v4 main_v5
  let main_c_1 : IVec S_ 1 := constantI S_ 1 1#1
  let main_v7 : IVec S_ 1 := (fun x v => Host.reduce IntOp.andi x v reducesTo_S512x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x2 .f32 := Host.absf main_arg4
  let main_cst_4 : FVec F S_ .f32 := constant S_ .f32 0x7F800000#32
  let main_v15 : FVec F S100x2 .f32 := broadcastInDim S100x2 ![] bcast_S_S100x2 main_cst_4
  let main_v16 : IVec S100x2 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x100 : Shape := ⟨2, ![512, 100]⟩
abbrev S100 : Shape := ⟨1, ![100]⟩
abbrev S100x2 : Shape := ⟨2, ![100, 2]⟩
abbrev S2 : Shape := ⟨1, ![2]⟩
abbrev S512x2 : Shape := ⟨2, ![512, 2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x100 : Shape := ⟨2, ![100000, 100]⟩
abbrev S2000x512 : Shape := ⟨2, ![2000, 512]⟩
abbrev S2000x100 : Shape := ⟨2, ![2000, 100]⟩
abbrev S1700000x100 : Shape := ⟨2, ![1700000, 100]⟩
abbrev S1x100 : Shape := ⟨2, ![1, 100]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 111
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x100, .f32⟩
  | .hbm, ⟨3, _⟩ => ⟨S100, .f32⟩
  | .hbm, ⟨4, _⟩ => ⟨S100x2, .f32⟩
  | .hbm, ⟨5, _⟩ => ⟨S2, .f32⟩
  | .hbm, ⟨6, _⟩ => ⟨S512x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x100, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x100, .f32⟩
  | .hbm, ⟨58, _⟩ => ⟨S1700000x1, .f32⟩
  | .hbm, ⟨59, _⟩ => ⟨S1700000x100, .f32⟩
  | .hbm, ⟨60, _⟩ => ⟨S1700000x100, .f32⟩
  | .hbm, ⟨61, _⟩ => ⟨S_, .f32⟩
  | .hbm, ⟨62, _⟩ => ⟨S100000x100, .f32⟩
  | .hbm, ⟨63, _⟩ => ⟨S1700000x1, .i32⟩
  | .hbm, ⟨64, _⟩ => ⟨S100000x100, .f32⟩
  | .hbm, ⟨65, _⟩ => ⟨S1x100, .f32⟩
  | .hbm, ⟨66, _⟩ => ⟨S100000x100, .f32⟩
  | .hbm, ⟨67, _⟩ => ⟨S100000x100, .f32⟩
  | .hbm, ⟨68, _⟩ => ⟨S_, .f32⟩
  | .hbm, ⟨69, _⟩ => ⟨S100000x100, .f32⟩
  | .hbm, ⟨70, _⟩ => ⟨S100000x100, .f32⟩
  | .hbm, ⟨71, _⟩ => ⟨S100000x2, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x2, .f32⟩
  | .hbm, ⟨81, _⟩ => ⟨S1700000x1, .f32⟩
  | .hbm, ⟨82, _⟩ => ⟨S1700000x2, .f32⟩
  | .hbm, ⟨83, _⟩ => ⟨S1700000x2, .f32⟩
  | .hbm, ⟨84, _⟩ => ⟨S_, .f32⟩
  | .hbm, ⟨85, _⟩ => ⟨S100000x2, .f32⟩
  | .hbm, ⟨86, _⟩ => ⟨S1700000x1, .i32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | .hbm, ⟨91, _⟩ => ⟨S100000x2, .f32⟩
  | .hbm, ⟨92, _⟩ => ⟨S1x2, .f32⟩
  | .hbm, ⟨93, _⟩ => ⟨S100000x2, .f32⟩
  | .hbm, ⟨94, _⟩ => ⟨S100000x2, .f32⟩
  | .hbm, ⟨95, _⟩ => ⟨S100000x2, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x2, .f32⟩
  | .hbm, ⟨103, _⟩ => ⟨S100000x2, .f32⟩
  | .hbm, ⟨104, _⟩ => ⟨S100000x2, .f32⟩
  | .hbm, ⟨105, _⟩ => ⟨S_, .f32⟩
  | .hbm, ⟨106, _⟩ => ⟨S100000, .f32⟩
  | .hbm, ⟨107, _⟩ => ⟨S100000x1, .f32⟩
  | .hbm, ⟨108, _⟩ => ⟨S100000x1, .f32⟩
  | .hbm, ⟨109, _⟩ => ⟨S100000x2, .f32⟩
  | .hbm, ⟨110, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S512x100, .f32⟩
  | .local _ .vmem, ⟨3, _⟩ => ⟨S2000x100, .f32⟩
  | .local _ .vmem, ⟨4, _⟩ => ⟨S2000x100, .f32⟩
  | .local _ .vmem, ⟨5, _⟩ => ⟨S2000x100, .f32⟩
  | .local _ .vmem, ⟨6, _⟩ => ⟨S2000x100, .f32⟩
  | .local _ .vmem, ⟨7, _⟩ => ⟨S100x2, .f32⟩
  | .local _ .vmem, ⟨8, _⟩ => ⟨S2000x2, .f32⟩
  | .local _ .vmem, ⟨9, _⟩ => ⟨S2000x2, .f32⟩
  | .local _ .vmem, ⟨10, _⟩ => ⟨S2000x512, .f32⟩
  | .local _ .vmem, ⟨11, _⟩ => ⟨S2000x512, .f32⟩
  | .local _ .vmem, ⟨12, _⟩ => ⟨S512x2, .f32⟩
  | .local _ .vmem, ⟨13, _⟩ => ⟨S2000x2, .f32⟩
  | .local _ .vmem, ⟨14, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call2_cst : Ref sig .tc := ⟨.hbm, 96, rfl⟩
abbrev main_call2_v0 : Ref sig .tc := ⟨.hbm, 97, rfl⟩
abbrev main_call2_cst_0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_cst_1 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_v70 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x100_S512x100_0_0 : ∀ a, (![0, 0] : Fin 2 → Nat) a + S512x100.size a ≤ S512x100.size a
  h_S512x100 : 0 < S512x100.numel
  inb_S2000x100_S2000x100_0_0 : ∀ a, (![0, 0] : Fin 2 → Nat) a + S2000x100.size a ≤ S2000x100.size a
  h_S2000x100 : 0 < S2000x100.numel
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  shapeCasts_S2000x100_S2000x100 : S2000x100.ShapeCasts S2000x100
  inb_S100x2_S100x2_0_0 : ∀ a, (![0, 0] : Fin 2 → Nat) a + S100x2.size a ≤ S100x2.size a
  h_S100x2 : 0 < S100x2.numel
  inb_S2000x2_S2000x2_0_0 : ∀ a, (![0, 0] : Fin 2 → Nat) a + S2000x2.size a ≤ S2000x2.size a
  h_S2000x2 : 0 < S2000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  inb_S512x2_S512x2_0_0 : ∀ a, (![0, 0] : Fin 2 → Nat) a + S512x2.size a ≤ S512x2.size a
  h_S512x2 : 0 < S512x2.numel
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x100_S2000x100_1_0_0_1_n_n_wf : DotDims.WF S2000x512 S512x100 S2000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S2000x100_S100x2_S2000x2_1_0_0_1_n_n_wf : DotDims.WF S2000x100 S100x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S2000x512_S512x2_S2000x2_1_0_0_1_n_n_wf : DotDims.WF S2000x512 S512x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x100.size a ≤ S512x100.size a
  hwx0_1 : ∀ i : grid0.Coords, EltTy.bits .f32 = 32 ∨ (Rect.block (s := S512x100) S512x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x100.size a ≤ S100000x100.size a
  hwx0_2 : ∀ i : grid0.Coords, EltTy.bits .f32 = 32 ∨ (Rect.block (s := S100000x100) S2000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x100.size a ≤ S100000x100.size a
  hwx1_0 : ∀ i : grid1.Coords, EltTy.bits .f32 = 32 ∨ (Rect.block (s := S100000x100) S2000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x2.size a ≤ S100x2.size a
  hwx1_1 : ∀ i : grid1.Coords, EltTy.bits .f32 = 32 ∨ (Rect.block (s := S100x2) S100x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S100000x2.size a
  hwx1_2 : ∀ i : grid1.Coords, EltTy.bits .f32 = 32 ∨ (Rect.block (s := S100000x2) S2000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2.size a ≤ S512x2.size a
  hwx2_1 : ∀ i : grid2.Coords, EltTy.bits .f32 = 32 ∨ (Rect.block (s := S512x2) S512x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x100_S2000x100_1_0_0_1_n_n : DotDims S2000x512 S512x100 S2000x100 where
  lhsContracting := [1]
  rhsContracting := [0]
  lhsNonContracting := [0]
  rhsNonContracting := [1]
  lhsBatch := []
  rhsBatch := []
  wf := dot_S2000x512_S512x100_S2000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S2000x100_S100x2_S2000x2_1_0_0_1_n_n : DotDims S2000x100 S100x2 S2000x2 where
  lhsContracting := [1]
  rhsContracting := [0]
  lhsNonContracting := [0]
  rhsNonContracting := [1]
  lhsBatch := []
  rhsBatch := []
  wf := dot_S2000x100_S100x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S2000x512_S512x2_S2000x2_1_0_0_1_n_n : DotDims S2000x512 S512x2 S2000x2 where
  lhsContracting := [1]
  rhsContracting := [0]
  lhsNonContracting := [0]
  rhsNonContracting := [1]
  lhsBatch := []
  rhsBatch := []
  wf := dot_S2000x512_S512x2_S2000x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S100x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x100 : Shape := ⟨2, ![512, 100]⟩
abbrev S100 : Shape := ⟨1, ![100]⟩
abbrev S100x2 : Shape := ⟨2, ![100, 2]⟩
abbrev S2 : Shape := ⟨1, ![2]⟩
abbrev S512x2 : Shape := ⟨2, ![512, 2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x100 : Shape := ⟨2, ![100000, 100]⟩
abbrev S1700000x100 : Shape := ⟨2, ![1700000, 100]⟩
abbrev S1x100 : Shape := ⟨2, ![1, 100]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x100, .f32⟩
  | .hbm, ⟨3, _⟩ => ⟨S100, .f32⟩
  | .hbm, ⟨4, _⟩ => ⟨S100x2, .f32⟩
  | .hbm, ⟨5, _⟩ => ⟨S2, .f32⟩
  | .hbm, ⟨6, _⟩ => ⟨S512x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x100, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x100, .f32⟩
  | .hbm, ⟨58, _⟩ => ⟨S1700000x1, .f32⟩
  | .hbm, ⟨59, _⟩ => ⟨S1700000x100, .f32⟩
  | .hbm, ⟨60, _⟩ => ⟨S1700000x100, .f32⟩
  | .hbm, ⟨61, _⟩ => ⟨S_, .f32⟩
  | .hbm, ⟨62, _⟩ => ⟨S100000x100, .f32⟩
  | .hbm, ⟨63, _⟩ => ⟨S1700000x1, .i32⟩
  | .hbm, ⟨64, _⟩ => ⟨S100000x100, .f32⟩
  | .hbm, ⟨65, _⟩ => ⟨S1x100, .f32⟩
  | .hbm, ⟨66, _⟩ => ⟨S100000x100, .f32⟩
  | .hbm, ⟨67, _⟩ => ⟨S100000x100, .f32⟩
  | .hbm, ⟨68, _⟩ => ⟨S_, .f32⟩
  | .hbm, ⟨69, _⟩ => ⟨S100000x100, .f32⟩
  | .hbm, ⟨70, _⟩ => ⟨S100000x100, .f32⟩
  | .hbm, ⟨71, _⟩ => ⟨S100000x2, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x2, .f32⟩
  | .hbm, ⟨81, _⟩ => ⟨S1700000x1, .f32⟩
  | .hbm, ⟨82, _⟩ => ⟨S1700000x2, .f32⟩
  | .hbm, ⟨83, _⟩ => ⟨S1700000x2, .f32⟩
  | .hbm, ⟨84, _⟩ => ⟨S_, .f32⟩
  | .hbm, ⟨85, _⟩ => ⟨S100000x2, .f32⟩
  | .hbm, ⟨86, _⟩ => ⟨S1700000x1, .i32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | .hbm, ⟨91, _⟩ => ⟨S100000x2, .f32⟩
  | .hbm, ⟨92, _⟩ => ⟨S1x2, .f32⟩
  | .hbm, ⟨93, _⟩ => ⟨S100000x2, .f32⟩
  | .hbm, ⟨94, _⟩ => ⟨S100000x2, .f32⟩
  | .hbm, ⟨95, _⟩ => ⟨S100000x2, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x2, .f32⟩
  | .hbm, ⟨103, _⟩ => ⟨S100000x2, .f32⟩
  | .hbm, ⟨104, _⟩ => ⟨S100000x2, .f32⟩
  | .hbm, ⟨105, _⟩ => ⟨S_, .f32⟩
  | .hbm, ⟨106, _⟩ => ⟨S100000, .f32⟩
  | .hbm, ⟨107, _⟩ => ⟨S100000x1, .f32⟩
  | .hbm, ⟨108, _⟩ => ⟨S100000x1, .f32⟩
  | .hbm, ⟨109, _⟩ => ⟨S100000x2, .f32⟩
  | .hbm, ⟨110, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call2_cst : Ref sig .tc := ⟨.hbm, 96, rfl⟩
abbrev main_call2_v0 : Ref sig .tc := ⟨.hbm, 97, rfl⟩
abbrev main_call2_cst_0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_cst_1 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_v70 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x100_S100000x100_1_0_0_1_n_n_wf : DotDims.WF S100000x512 S512x100 S100000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S100000x100_S100x2_S100000x2_1_0_0_1_n_n_wf : DotDims.WF S100000x100 S100x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S100000x512_S512x2_S100000x2_1_0_0_1_n_n_wf : DotDims.WF S100000x512 S512x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x100_S100000x100_1_0_0_1_n_n : DotDims S100000x512 S512x100 S100000x100 where
  lhsContracting := [1]
  rhsContracting := [0]
  lhsNonContracting := [0]
  rhsNonContracting := [1]
  lhsBatch := []
  rhsBatch := []
  wf := dot_S100000x512_S512x100_S100000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S100000x100_S100x2_S100000x2_1_0_0_1_n_n : DotDims S100000x100 S100x2 S100000x2 where
  lhsContracting := [1]
  rhsContracting := [0]
  lhsNonContracting := [0]
  rhsNonContracting := [1]
  lhsBatch := []
  rhsBatch := []
  wf := dot_S100000x100_S100x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S100000x512_S512x2_S100000x2_1_0_0_1_n_n : DotDims S100000x512 S512x2 S100000x2 where
  lhsContracting := [1]
  rhsContracting := [0]
  lhsNonContracting := [0]
  rhsNonContracting := [1]
  lhsBatch := []
  rhsBatch := []
  wf := dot_S100000x512_S512x2_S100000x2_1_0_0_1_n_n_wf

class Facts : Prop extends Facts₀ where

variable [Facts]
-- ==== Proof.KernelRun.lean ====
/-
  The idealized kernel's run with its result named.

  The program is eleven segments in a row: stretches of host operations and the three tiled products between them. Its
  frame certificate already follows the contents of every buffer from segment to segment, ending at the valuation
  `W11`; here the same chain of segments is read once more with the result buffer kept in the final statement: every
  execution terminates with the result at `W11`'s value there and the arguments as launched.
-/
import proofs.«151512_j51616916963797_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    segment boundary's contents and the arguments as launched. -/
theorem run_value : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Tiles0.lean ====
/-
  The first product, x · W1, as the row-tiled kernel leaves it.

  The kernel walks the 100000 rows of x in 50 tiles of 2000 rows; at tile t it multiplies rows 2000·t … 2000·t + 1999
  of x by the whole of W1 (both read in bf16, which at the ideal values is no change) into a zero accumulator and writes
  the 2000 × 100 result over the same rows of the output. Entry (p, q) of a tile is therefore the sum over l of
  x (2000·t + p, l) · W1 (l, q): the tile is the restriction to its rows of ONE whole-array function, the plain product
  of x and W1, and since the 50 tiles cover every row the output array ends holding that product.
-/
import proofs.«151512_j51616916963797_1_alg».proof.Proof.Gen.KernelIdeal.Frame
import proofs.«151512_j51616916963797_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tiles0

open Idealize.ShloMosaic Idealize.ShloMosaic.TcCoe Idealize.ShloMosaic.ValueIdx Idealize.SL.Sem
open Idealize.ShloMosaic.Pipeline (Dat)
open Cert.KernelIdeal Cert.KernelIdeal.Gen

/-- The whole product: entry (i, q) is the sum over l of a (i, l) · w (l, q). -/
abbrev whole (a : FVec Ideal S100000x512 .f32) (w : FVec Ideal S512x100 .f32) : FVec Ideal S100000x100 .f32 :=
  Host.dotGeneral (F := Ideal) (DotDims.plain 100000 512 100) none a w

theorem hz : (![0, 0] : Fin 2 → Nat) = fun _ => 0 := funext fun a => by fin_cases a <;> rfl

/-- One tile's payload at entry (p, q): the sum over l of the loaded rows' (p, l) times the loaded weights' (l, q). -/
theorem pay_apply (x0 : Vec Ideal S2000x512 .f32) (x1 : Vec Ideal S512x100 .f32) (p : Fin 2000) (q : Fin 100) :
    k0_pay1 x0 x1 (ix2 p q) = ∑ l : Fin 512, x0 (ix2 p l) * x1 (ix2 l q) := by
  unfold k0_pay1
  exact Cert.LibPlainDot.matmul_zero_apply (M := 2000) (K := 512) (N := 100) none _ _ p q

/-- A tile whose loaded rows are rows r … r + 1999 of `a` and whose loaded weights are all of `w` is, entry by entry,
    the whole product on those rows. -/
theorem tile_eq (a : FVec Ideal S100000x512 .f32) (w : FVec Ideal S512x100 .f32)
    (b0 : Vec Ideal S2000x512 .f32) (b1 : Vec Ideal S512x100 .f32) (r : ℕ) (hr : r + 2000 ≤ 100000)
    (h0 : ∀ (p : Fin 2000) (l : Fin 512), b0 (ix2 p l) = a (ix2 (⟨r + p.val, by omega⟩ : Fin 100000) l))
    (h1 : ∀ (l : Fin 512) (q : Fin 100), b1 (ix2 l q) = w (ix2 l q))
    (p : Fin 2000) (q : Fin 100) :
    k0_pay1 b0 b1 (ix2 p q) = whole a w (ix2 (⟨r + p.val, by omega⟩ : Fin 100000) q) := by
  rw [pay_apply]
  refine (Finset.sum_congr rfl fun l _ => ?_).trans
    (Cert.LibPlainDot.dotGeneral_apply (M := 100000) (K := 512) (N := 100) none .single a w _ q).symm
  rw [h0, h1]

variable (V : (c : Dev nD) → (b : Ref sig .tc) → Buf (Elt Ideal) ((c : Thread nD τ).loc b))

/-- The printed index maps over the grid: tile t of x and of the output is at block row t, block column 0; the weights'
    one block is at (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 50 := by have := t.isLt; have hN : cfg0.N = 50 := N_0; omega

/-- Tile t's rows of x, as the region finds the array. -/
theorem rows (c : Dev nD) (t : Fin cfg0.N) (p : Fin 2000) (l : Fin 512) :
    (iblk0 V c 0 t : Vec Ideal S2000x512 .f32) (ix2 p l)
      = V c main_arg0 (ix2 (⟨t.val * 2000 + p.val, by have := lt_N t; omega⟩ : Fin 100000) l) := by
  obtain ⟨e0, e1, -, -, -, -⟩ := idx t
  show V c main_arg0 (((cfg0.win 0).blk t).view.emb (ix2 p l)) = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 512 + 1 * l.val = l.val; rw [e1]; omega

/-- The weights' block is the whole array. -/
theorem weights (c : Dev nD) (t : Fin cfg0.N) (l : Fin 512) (q : Fin 100) :
    (iblk0 V c 1 t : Vec Ideal S512x100 .f32) (ix2 l q) = V c main_arg2 (ix2 l q) := by
  obtain ⟨-, -, e2, e3, -, -⟩ := idx t
  show V c main_arg2 (((cfg0.win 1).blk t).view.emb (ix2 l q)) = _
  refine congrArg _ (funext fun a => Fin.ext ?_)
  match a with
  | ⟨0, _⟩ => show win0_1.index t (0 : Fin 2) * 512 + 1 * l.val = l.val; rw [e2]; omega
  | ⟨1, _⟩ => show win0_1.index t (1 : Fin 2) * 100 + 1 * q.val = q.val; rw [e3]; omega

/-- What tile t writes back is the tile-t block of the whole product of the arrays the region finds. -/
theorem flushed (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x100) hz]
  obtain ⟨-, -, -, -, e4, e5⟩ := idx t
  funext j
  obtain ⟨p, q, rfl⟩ : ∃ (p : Fin 2000) (q : Fin 100), j = ix2 p q := ⟨j 0, j 1, eq_ix2 j⟩
  show k0_pay1 (iblk0 V c 0 t) (iblk0 V c 1 t) (ix2 p q)
    = whole (V c main_arg0) (V c main_arg2) (((cfg0.win 2).blk t).view.emb (ix2 p q))
  have e : ((cfg0.win 2).blk t).view.emb (ix2 p q)
      = ix2 (⟨t.val * 2000 + p.val, by have := lt_N t; omega⟩ : Fin 100000) q :=
    funext fun a => Fin.ext (by
      match a with
      | ⟨0, _⟩ => show win0_2.index t (0 : Fin 2) * 2000 + 1 * p.val = t.val * 2000 + p.val; rw [e4]; omega
      | ⟨1, _⟩ => show win0_2.index t (1 : Fin 2) * 100 + 1 * q.val = q.val; rw [e5]; omega)
  rw [e]
  exact tile_eq (V c main_arg0) (V c main_arg2) (iblk0 V c 0 t) (iblk0 V c 1 t) (t.val * 2000)
    (by have := lt_N t; omega) (rows V c t) (weights V c t) p q

/-- An index of the output array is in tile t's block iff each coordinate is in the block's range on its axis. -/
theorem mem_blk (t : Fin cfg0.N) (i : S100000x100.Idx) :
    i ∈ ((cfg0.win 2).blk t).view.set ↔ ∀ a : Fin 2, win0_2.index t a * S2000x100.size a ≤ (i a).val
      ∧ (i a).val < win0_2.index t a * S2000x100.size a + S2000x100.size a := by
  show i ∈ ((View.whole main_v30).slice (win0_2.rect t)).set ↔ _
  rw [View.set_slice_whole, Rect.mem_set_unit]
  exact Iff.rfl

/-- Every row of the output is in the tile of its row index divided by 2000. -/
theorem cover (i : S100000x100.Idx) :
    ∃ t : Fin cfg0.N, (cfg0.win 2).flush t = true ∧ i ∈ ((cfg0.win 2).blk t).view.set := by
  have hi0 : (i 0).val < 100000 := (i 0).isLt
  have hi1 : (i 1).val < 100 := (i 1).isLt
  have hN : cfg0.N = 50 := N_0
  refine ⟨⟨(i 0).val / 2000, by omega⟩, flush0_2 _, ?_⟩
  obtain ⟨-, -, -, -, e4, e5⟩ := idx ⟨(i 0).val / 2000, by omega⟩
  rw [mem_blk]
  intro a
  match a with
  | ⟨0, _⟩ =>
    show win0_2.index ⟨(i 0).val / 2000, _⟩ (0 : Fin 2) * 2000 ≤ (i 0).val
      ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 100 ≤ (i 1).val
      ∧ (i 1).val < win0_2.index ⟨(i 0).val / 2000, _⟩ (1 : Fin 2) * 100 + 100
    rw [e5]; omega

/-- The output array after the region: the whole product of the two input arrays as the region found them. -/
theorem final (c : Dev nD) : (dat0 V c).arrAt 2 cfg0.N = whole (V c main_arg0) (V c main_arg2) :=
  (dat0 V c).arrAt_eq_of_cover 2 (whole (V c main_arg0) (V c main_arg2)) (fun t _ => flushed V c t) cover

end Cert.KernelIdeal.Tiles0

end
-- ==== Proof.Tiles1.lean ====
/-
  The second product, h1 · W2, as the row-tiled kernel leaves it.

  The same walk as for the first product, over the hidden layer h1 (100000 × 100) and W2 (100 × 2): at tile t rows
  2000·t … 2000·t + 1999 of h1 (passed through a shape cast to the shape they already have, and read in bf16, neither of
  which changes an ideal value) are multiplied by the whole of W2 into a zero accumulator and written over the same rows
  of the 100000 × 2 output. Entry (p, q) of a tile is the sum over l of h1 (2000·t + p, l) · W2 (l, q); the 50 tiles
  cover every row, so the output array ends holding the plain product of h1 and W2.
-/
import proofs.«151512_j51616916963797_1_alg».proof.Proof.Gen.KernelIdeal.Frame
import proofs.«151512_j51616916963797_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tiles1

open Idealize.ShloMosaic Idealize.ShloMosaic.TcCoe Idealize.ShloMosaic.ValueIdx Idealize.SL.Sem
open Idealize.ShloMosaic.Pipeline (Dat)
open Cert.KernelIdeal Cert.KernelIdeal.Gen

/-- The whole product: entry (i, q) is the sum over l of a (i, l) · w (l, q). -/
abbrev whole (a : FVec Ideal S100000x100 .f32) (w : FVec Ideal S100x2 .f32) : FVec Ideal S100000x2 .f32 :=
  Host.dotGeneral (F := Ideal) (DotDims.plain 100000 100 2) none a w

theorem hz : (![0, 0] : Fin 2 → Nat) = fun _ => 0 := funext fun a => by fin_cases a <;> rfl

/-- One tile's payload at entry (p, q): the sum over l of the loaded rows' (p, l) times the loaded weights' (l, q). -/
theorem pay_apply (x0 : Vec Ideal S2000x100 .f32) (x1 : Vec Ideal S100x2 .f32) (p : Fin 2000) (q : Fin 2) :
    k1_pay1 x0 x1 (ix2 p q) = ∑ l : Fin 100, x0 (ix2 p l) * x1 (ix2 l q) := by
  unfold k1_pay1
  refine (Cert.LibPlainDot.matmul_zero_apply (M := 2000) (K := 100) (N := 2) none _ _ p q).trans ?_
  refine Finset.sum_congr rfl fun l _ => ?_
  show (shapeCast S2000x100 x0 _) (ix2 p l) * x1 (ix2 l q) = _
  rw [shapeCast_self]

/-- A tile whose loaded rows are rows r … r + 1999 of `a` and whose loaded weights are all of `w` is, entry by entry,
    the whole product on those rows. -/
theorem tile_eq (a : FVec Ideal S100000x100 .f32) (w : FVec Ideal S100x2 .f32)
    (b0 : Vec Ideal S2000x100 .f32) (b1 : Vec Ideal S100x2 .f32) (r : ℕ) (hr : r + 2000 ≤ 100000)
    (h0 : ∀ (p : Fin 2000) (l : Fin 100), b0 (ix2 p l) = a (ix2 (⟨r + p.val, by omega⟩ : Fin 100000) l))
    (h1 : ∀ (l : Fin 100) (q : Fin 2), b1 (ix2 l q) = w (ix2 l q))
    (p : Fin 2000) (q : Fin 2) :
    k1_pay1 b0 b1 (ix2 p q) = whole a w (ix2 (⟨r + p.val, by omega⟩ : Fin 100000) q) := by
  rw [pay_apply]
  refine (Finset.sum_congr rfl fun l _ => ?_).trans
    (Cert.LibPlainDot.dotGeneral_apply (M := 100000) (K := 100) (N := 2) none .single a w _ q).symm
  rw [h0, h1]

variable (V : (c : Dev nD) → (b : Ref sig .tc) → Buf (Elt Ideal) ((c : Thread nD τ).loc b))

/-- The printed index maps over the grid: tile t of x and of the output is at block row t, block column 0; the weights'
    one block is at (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_N (t : Fin cfg1.N) : t.val < 50 := by have := t.isLt; have hN : cfg1.N = 50 := N_1; omega

/-- Tile t's rows of x, as the region finds the array. -/
theorem rows (c : Dev nD) (t : Fin cfg1.N) (p : Fin 2000) (l : Fin 100) :
    (iblk1 V c 0 t : Vec Ideal S2000x100 .f32) (ix2 p l)
      = V c main_v47 (ix2 (⟨t.val * 2000 + p.val, by have := lt_N t; omega⟩ : Fin 100000) l) := by
  obtain ⟨e0, e1, -, -, -, -⟩ := idx t
  show V c main_v47 (((cfg1.win 0).blk t).view.emb (ix2 p l)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 100 + 1 * l.val = l.val; rw [e1]; omega

/-- The weights' block is the whole array. -/
theorem weights (c : Dev nD) (t : Fin cfg1.N) (l : Fin 100) (q : Fin 2) :
    (iblk1 V c 1 t : Vec Ideal S100x2 .f32) (ix2 l q) = V c main_arg4 (ix2 l q) := by
  obtain ⟨-, -, e2, e3, -, -⟩ := idx t
  show V c main_arg4 (((cfg1.win 1).blk t).view.emb (ix2 l q)) = _
  refine congrArg _ (funext fun a => Fin.ext ?_)
  match a with
  | ⟨0, _⟩ => show win1_1.index t (0 : Fin 2) * 100 + 1 * l.val = l.val; rw [e2]; omega
  | ⟨1, _⟩ => show win1_1.index t (1 : Fin 2) * 2 + 1 * q.val = q.val; rw [e3]; omega

/-- What tile t writes back is the tile-t block of the whole product of the arrays the region finds. -/
theorem flushed (c : Dev nD) (t : Fin cfg1.N) :
    (dat1 V c).flushed 2 t = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero hz]
  simp only [View.ld_unit_zero (S := S2000x100) hz, View.ld_unit_zero (S := S100x2) hz]
  obtain ⟨-, -, -, -, e4, e5⟩ := idx t
  funext j
  obtain ⟨p, q, rfl⟩ : ∃ (p : Fin 2000) (q : Fin 2), j = ix2 p q := ⟨j 0, j 1, eq_ix2 j⟩
  show k1_pay1 (iblk1 V c 0 t) (iblk1 V c 1 t) (ix2 p q)
    = whole (V c main_v47) (V c main_arg4) (((cfg1.win 2).blk t).view.emb (ix2 p q))
  have e : ((cfg1.win 2).blk t).view.emb (ix2 p q)
      = ix2 (⟨t.val * 2000 + p.val, by have := lt_N t; omega⟩ : Fin 100000) q :=
    funext fun a => Fin.ext (by
      match a with
      | ⟨0, _⟩ => show win1_2.index t (0 : Fin 2) * 2000 + 1 * p.val = t.val * 2000 + p.val; rw [e4]; omega
      | ⟨1, _⟩ => show win1_2.index t (1 : Fin 2) * 2 + 1 * q.val = q.val; rw [e5]; omega)
  rw [e]
  exact tile_eq (V c main_v47) (V c main_arg4) (iblk1 V c 0 t) (iblk1 V c 1 t) (t.val * 2000)
    (by have := lt_N t; omega) (rows V c t) (weights V c t) p q

/-- An index of the output array is in tile t's block iff each coordinate is in the block's range on its axis. -/
theorem mem_blk (t : Fin cfg1.N) (i : S100000x2.Idx) :
    i ∈ ((cfg1.win 2).blk t).view.set ↔ ∀ a : Fin 2, win1_2.index t a * S2000x2.size a ≤ (i a).val
      ∧ (i a).val < win1_2.index t a * S2000x2.size a + S2000x2.size a := by
  show i ∈ ((View.whole main_v48).slice (win1_2.rect t)).set ↔ _
  rw [View.set_slice_whole, Rect.mem_set_unit]
  exact Iff.rfl

/-- Every row of the output is in the tile of its row index divided by 2000. -/
theorem cover (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 50 := N_1
  refine ⟨⟨(i 0).val / 2000, by omega⟩, flush1_2 _, ?_⟩
  obtain ⟨-, -, -, -, e4, e5⟩ := idx ⟨(i 0).val / 2000, by omega⟩
  rw [mem_blk]
  intro a
  match a with
  | ⟨0, _⟩ =>
    show win1_2.index ⟨(i 0).val / 2000, _⟩ (0 : Fin 2) * 2000 ≤ (i 0).val
      ∧ (i 0).val < win1_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, _⟩ (1 : Fin 2) * 2 ≤ (i 1).val
      ∧ (i 1).val < win1_2.index ⟨(i 0).val / 2000, _⟩ (1 : Fin 2) * 2 + 2
    rw [e5]; omega

/-- The output array after the region: the whole product of the two input arrays as the region found them. -/
theorem final (c : Dev nD) : (dat1 V c).arrAt 2 cfg1.N = whole (V c main_v47) (V c main_arg4) :=
  (dat1 V c).arrAt_eq_of_cover 2 (whole (V c main_v47) (V c main_arg4)) (fun t _ => flushed V c t) cover

end Cert.KernelIdeal.Tiles1

end
-- ==== Proof.Tiles2.lean ====
/-
  The third product, x · Ws (the skip branch), as the row-tiled kernel leaves it.

  The same walk as for the first product, over x (100000 × 512) and Ws (512 × 2): at tile t rows 2000·t … 2000·t + 1999
  of x, read in bf16 (no change at the ideal values), are multiplied by the whole of Ws into a zero accumulator and
  written over the same rows of the 100000 × 2 output. Entry (p, q) of a tile is the sum over l of
  x (2000·t + p, l) · Ws (l, q); the 50 tiles cover every row, so the output array ends holding the plain product of x
  and Ws.
-/
import proofs.«151512_j51616916963797_1_alg».proof.Proof.Gen.KernelIdeal.Frame
import proofs.«151512_j51616916963797_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tiles2

open Idealize.ShloMosaic Idealize.ShloMosaic.TcCoe Idealize.ShloMosaic.ValueIdx Idealize.SL.Sem
open Idealize.ShloMosaic.Pipeline (Dat)
open Cert.KernelIdeal Cert.KernelIdeal.Gen

/-- The whole product: entry (i, q) is the sum over l of a (i, l) · w (l, q). -/
abbrev whole (a : FVec Ideal S100000x512 .f32) (w : FVec Ideal S512x2 .f32) : FVec Ideal S100000x2 .f32 :=
  Host.dotGeneral (F := Ideal) (DotDims.plain 100000 512 2) none a w

theorem hz : (![0, 0] : Fin 2 → Nat) = fun _ => 0 := funext fun a => by fin_cases a <;> rfl

/-- One tile's payload at entry (p, q): the sum over l of the loaded rows' (p, l) times the loaded weights' (l, q). -/
theorem pay_apply (x0 : Vec Ideal S2000x512 .f32) (x1 : Vec Ideal S512x2 .f32) (p : Fin 2000) (q : Fin 2) :
    k2_pay1 x0 x1 (ix2 p q) = ∑ l : Fin 512, x0 (ix2 p l) * x1 (ix2 l q) := by
  unfold k2_pay1
  exact Cert.LibPlainDot.matmul_zero_apply (M := 2000) (K := 512) (N := 2) none _ _ p q

/-- A tile whose loaded rows are rows r … r + 1999 of `a` and whose loaded weights are all of `w` is, entry by entry,
    the whole product on those rows. -/
theorem tile_eq (a : FVec Ideal S100000x512 .f32) (w : FVec Ideal S512x2 .f32)
    (b0 : Vec Ideal S2000x512 .f32) (b1 : Vec Ideal S512x2 .f32) (r : ℕ) (hr : r + 2000 ≤ 100000)
    (h0 : ∀ (p : Fin 2000) (l : Fin 512), b0 (ix2 p l) = a (ix2 (⟨r + p.val, by omega⟩ : Fin 100000) l))
    (h1 : ∀ (l : Fin 512) (q : Fin 2), b1 (ix2 l q) = w (ix2 l q))
    (p : Fin 2000) (q : Fin 2) :
    k2_pay1 b0 b1 (ix2 p q) = whole a w (ix2 (⟨r + p.val, by omega⟩ : Fin 100000) q) := by
  rw [pay_apply]
  refine (Finset.sum_congr rfl fun l _ => ?_).trans
    (Cert.LibPlainDot.dotGeneral_apply (M := 100000) (K := 512) (N := 2) none .single a w _ q).symm
  rw [h0, h1]

variable (V : (c : Dev nD) → (b : Ref sig .tc) → Buf (Elt Ideal) ((c : Thread nD τ).loc b))

/-- The printed index maps over the grid: tile t of x and of the output is at block row t, block column 0; the weights'
    one block is at (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_N (t : Fin cfg2.N) : t.val < 50 := by have := t.isLt; have hN : cfg2.N = 50 := N_2; omega

/-- Tile t's rows of x, as the region finds the array. -/
theorem rows (c : Dev nD) (t : Fin cfg2.N) (p : Fin 2000) (l : Fin 512) :
    (iblk2 V c 0 t : Vec Ideal S2000x512 .f32) (ix2 p l)
      = V c main_arg0 (ix2 (⟨t.val * 2000 + p.val, by have := lt_N t; omega⟩ : Fin 100000) l) := by
  obtain ⟨e0, e1, -, -, -, -⟩ := idx t
  show V c main_arg0 (((cfg2.win 0).blk t).view.emb (ix2 p l)) = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 512 + 1 * l.val = l.val; rw [e1]; omega

/-- The weights' block is the whole array. -/
theorem weights (c : Dev nD) (t : Fin cfg2.N) (l : Fin 512) (q : Fin 2) :
    (iblk2 V c 1 t : Vec Ideal S512x2 .f32) (ix2 l q) = V c main_arg6 (ix2 l q) := by
  obtain ⟨-, -, e2, e3, -, -⟩ := idx t
  show V c main_arg6 (((cfg2.win 1).blk t).view.emb (ix2 l q)) = _
  refine congrArg _ (funext fun a => Fin.ext ?_)
  match a with
  | ⟨0, _⟩ => show win2_1.index t (0 : Fin 2) * 512 + 1 * l.val = l.val; rw [e2]; omega
  | ⟨1, _⟩ => show win2_1.index t (1 : Fin 2) * 2 + 1 * q.val = q.val; rw [e3]; omega

/-- What tile t writes back is the tile-t block of the whole product of the arrays the region finds. -/
theorem flushed (c : Dev nD) (t : Fin cfg2.N) :
    (dat2 V c).flushed 2 t = ((cfg2.win 2).blk t).view.read (Elt Ideal) (whole (V c main_arg0) (V c main_arg6)) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x2) hz]
  obtain ⟨-, -, -, -, e4, e5⟩ := idx t
  funext j
  obtain ⟨p, q, rfl⟩ : ∃ (p : Fin 2000) (q : Fin 2), j = ix2 p q := ⟨j 0, j 1, eq_ix2 j⟩
  show k2_pay1 (iblk2 V c 0 t) (iblk2 V c 1 t) (ix2 p q)
    = whole (V c main_arg0) (V c main_arg6) (((cfg2.win 2).blk t).view.emb (ix2 p q))
  have e : ((cfg2.win 2).blk t).view.emb (ix2 p q)
      = ix2 (⟨t.val * 2000 + p.val, by have := lt_N t; omega⟩ : Fin 100000) q :=
    funext fun a => Fin.ext (by
      match a with
      | ⟨0, _⟩ => show win2_2.index t (0 : Fin 2) * 2000 + 1 * p.val = t.val * 2000 + p.val; rw [e4]; omega
      | ⟨1, _⟩ => show win2_2.index t (1 : Fin 2) * 2 + 1 * q.val = q.val; rw [e5]; omega)
  rw [e]
  exact tile_eq (V c main_arg0) (V c main_arg6) (iblk2 V c 0 t) (iblk2 V c 1 t) (t.val * 2000)
    (by have := lt_N t; omega) (rows V c t) (weights V c t) p q

/-- An index of the output array is in tile t's block iff each coordinate is in the block's range on its axis. -/
theorem mem_blk (t : Fin cfg2.N) (i : S100000x2.Idx) :
    i ∈ ((cfg2.win 2).blk t).view.set ↔ ∀ a : Fin 2, win2_2.index t a * S2000x2.size a ≤ (i a).val
      ∧ (i a).val < win2_2.index t a * S2000x2.size a + S2000x2.size a := by
  show i ∈ ((View.whole main_v65).slice (win2_2.rect t)).set ↔ _
  rw [View.set_slice_whole, Rect.mem_set_unit]
  exact Iff.rfl

/-- Every row of the output is in the tile of its row index divided by 2000. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 50 := N_2
  refine ⟨⟨(i 0).val / 2000, by omega⟩, flush2_2 _, ?_⟩
  obtain ⟨-, -, -, -, e4, e5⟩ := idx ⟨(i 0).val / 2000, by omega⟩
  rw [mem_blk]
  intro a
  match a with
  | ⟨0, _⟩ =>
    show win2_2.index ⟨(i 0).val / 2000, _⟩ (0 : Fin 2) * 2000 ≤ (i 0).val
      ∧ (i 0).val < win2_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, _⟩ (1 : Fin 2) * 2 ≤ (i 1).val
      ∧ (i 1).val < win2_2.index ⟨(i 0).val / 2000, _⟩ (1 : Fin 2) * 2 + 2
    rw [e5]; omega

/-- The output array after the region: the whole product of the two input arrays as the region found them. -/
theorem final (c : Dev nD) : (dat2 V c).arrAt 2 cfg2.N = whole (V c main_arg0) (V c main_arg6) :=
  (dat2 V c).arrAt_eq_of_cover 2 (whole (V c main_arg0) (V c main_arg6)) (fun t _ => flushed V c t) cover

end Cert.KernelIdeal.Tiles2

end
-- ==== Proof.LibRegionAsOp.lean ====
/-
  A kernel region read as one host operation, and a fold over a concatenation.

  A pallas_call's region changes the buffer contents only at its arrays: each ends at what the pipeline's write-backs
  leave, every other buffer keeps what it held. A host operation changes the contents only at its result buffer. So when
  a valuation agrees with the region's exit contents at each array and with the entry contents everywhere else, it IS
  the region's exit valuation; in particular a region whose one output array ends at a function of its (unchanged) input
  arrays leaves exactly what the host operation computing that function would.
-/
import Idealize.ShloMosaic.Lib.Pipeline.FrameSuffix
import Idealize.ShloMosaic.Lib.StableHlo.Run

noncomputable section

namespace Cert.LibRegionAsOp

open Idealize.ShloMosaic Idealize.SL.Sem

variable {nD : Nat} {τ : Topo} {sig : RefSig} {Val : EltTy → Type}

/-- The contents after two lines of operations run one after the other are those after their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after a one-operation line. -/
theorem after_single (op : HloOp τ sig Val) (V : Valuation τ sig Val) : StableHlo.after [op] V = op.result V := rfl

/-- A region's exit valuation (its arrays at `A`, everything else as entered) is any valuation `V'` that holds `A` at
    the arrays and the entry contents `V` at every other buffer. -/
theorem withArrays_eq_of {gr W : Nat} (win : Fin W → Pipeline.WinSpec sig gr)
    (hinj : Function.Injective (Pipeline.arrRef win)) (c : Dev nD) (V V' : Valuation τ sig Val)
    (A : (w : Fin W) → Buf Val ((win w).arr.view.loc (c.tc : Thread nD τ)))
    (harr : ∀ w, V' (Proc.devRef .tc (Pipeline.arrRef win w)) = A w)
    (hrest : ∀ b : DevRef τ sig, (∀ w, Proc.devRef .tc (Pipeline.arrRef win w) ≠ b) → V' b = V b) :
    Pipeline.withArrays win c V A = V' := by
  funext b
  by_cases h : ∃ w, Proc.devRef .tc (Pipeline.arrRef win w) = b
  · obtain ⟨w, rfl⟩ := h
    rw [Pipeline.withArrays_arr win hinj, harr]
  · unfold Pipeline.withArrays
    rw [dif_neg h, hrest b fun w e => h ⟨w, e⟩]

end Cert.LibRegionAsOp

end
-- ==== Proof.KernelOps.lean ====
/-
  The idealized kernel's host side with a dot_general in each pallas_call's place.

  Each of the three tiled products multiplies two whole buffers into a third: x and W1 into the first layer's features,
  the hidden layer and W2 into the second layer's, x and Ws into the skip branch. Written as the host operation that
  computes the same thing — a plain dot_general of the two input buffers into the output buffer — and put where the
  pallas_call stands among the program's host operations, they make the program one straight line of operations.
-/
import proofs.«151512_j51616916963797_1_alg».proof.Proof.Gen.KernelIdeal.Launch
import Idealize.ShloMosaic.PureOps.Ideal

noncomputable section

namespace Cert.KernelIdeal.Whole

open Idealize.ShloMosaic Idealize.ShloMosaic.TcCoe Idealize.SL.Sem
open Cert.KernelIdeal Cert.KernelIdeal.Gen

/-- The first product as a host operation: x (100000 × 512) times W1 (512 × 100). -/
abbrev dotOp0 : HloOp τ sig (Elt Ideal) :=
  StableHlo.binary main_arg0 main_arg2 main_v30 ((fun l r => Host.dotGeneral (F := Ideal) (φ₁ := .f32) (φ₂ := .f32) (DotDims.plain 100000 512 100) none l r) : (⟨S100000x512, .f32⟩ : BufTy).Contents (Elt Ideal) → (⟨S512x100, .f32⟩ : BufTy).Contents (Elt Ideal) → (⟨S100000x100, .f32⟩ : BufTy).Contents (Elt Ideal))
/-- The second product: the hidden layer (100000 × 100) times W2 (100 × 2). -/
abbrev dotOp1 : HloOp τ sig (Elt Ideal) :=
  StableHlo.binary main_v47 main_arg4 main_v48 ((fun l r => Host.dotGeneral (F := Ideal) (φ₁ := .f32) (φ₂ := .f32) (DotDims.plain 100000 100 2) none l r) : (⟨S100000x100, .f32⟩ : BufTy).Contents (Elt Ideal) → (⟨S100x2, .f32⟩ : BufTy).Contents (Elt Ideal) → (⟨S100000x2, .f32⟩ : BufTy).Contents (Elt Ideal))
/-- The third product: x (100000 × 512) times Ws (512 × 2). -/
abbrev dotOp2 : HloOp τ sig (Elt Ideal) :=
  StableHlo.binary main_arg0 main_arg6 main_v65 ((fun l r => Host.dotGeneral (F := Ideal) (φ₁ := .f32) (φ₂ := .f32) (DotDims.plain 100000 512 2) none l r) : (⟨S100000x512, .f32⟩ : BufTy).Contents (Elt Ideal) → (⟨S512x2, .f32⟩ : BufTy).Contents (Elt Ideal) → (⟨S100000x2, .f32⟩ : BufTy).Contents (Elt Ideal))

/-- Everything after the first stretch of host operations. -/
abbrev tailK : List (HloOp τ sig (Elt Ideal)) :=
  (hostOps0_1 (F := Ideal) ++ (hostOps0_2 (F := Ideal) ++ (dotOp0 :: (hostOps1 (F := Ideal) ++ (hostOps1_1 (F := Ideal) ++ (dotOp1 :: (hostOps2 (F := Ideal) ++ (dotOp2 :: (hostOps3 (F := Ideal) ++ hostOps3_1 (F := Ideal))))))))))

/-- The program's operations with a dot_general in each pallas_call's place, in order. -/
abbrev opsK : List (HloOp τ sig (Elt Ideal)) := hostOps0 (F := Ideal) ++ tailK

end Cert.KernelIdeal.Whole

end
-- ==== Proof.KernelFold.lean ====
/-
  The idealized kernel's result as a fold of host operations.

  Each of the three tiled products leaves its output array at the plain product of its two input arrays and touches
  nothing else (Tiles0, Tiles1, Tiles2), which is what a host dot_general of those two buffers into the output buffer
  would leave. So the contents at the last segment boundary are the fold, over the launch contents, of the program's
  host operations with one dot_general standing where each pallas_call is.
-/
import proofs.«151512_j51616916963797_1_alg».proof.Proof.Gen.KernelIdeal.Frame
import proofs.«151512_j51616916963797_1_alg».proof.Proof.Tiles0
import proofs.«151512_j51616916963797_1_alg».proof.Proof.Tiles1
import proofs.«151512_j51616916963797_1_alg».proof.Proof.Tiles2
import proofs.«151512_j51616916963797_1_alg».proof.Proof.LibRegionAsOp
import proofs.«151512_j51616916963797_1_alg».proof.Proof.KernelOps

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen Cert.LibRegionAsOp

variable (m : (ℓ : Loc nD τ sig) → Buf (Elt Ideal) ℓ) (ρ : Dev nD → PrngReg)

/-- The first region leaves what the dot_general of x and W1 into its output buffer leaves. -/
theorem region0 (c : Dev nD) : W4 m ρ c = dotOp0.result (W3 m ρ c) := by
  unfold W4
  refine withArrays_eq_of spec0 launch0.win.arr_inj c _ _ _ (fun w => ?_) (fun b hb => ?_)
  · match w with
    | ⟨0, _⟩ =>
      exact (StableHlo.binary_result_ne _ _ _ _ _ _ _ _ (show main_arg0 ≠ main_v30 by decide)).trans
        (((dat0 (V3 m ρ) c).arrAt_in 0 rfl _).trans (A_eq0 (V3 m ρ) c 0)).symm
    | ⟨1, _⟩ =>
      exact (StableHlo.binary_result_ne _ _ _ _ _ _ _ _ (show main_arg2 ≠ main_v30 by decide)).trans
        (((dat0 (V3 m ρ) c).arrAt_in 1 rfl _).trans (A_eq0 (V3 m ρ) c 1)).symm
    | ⟨2, _⟩ =>
      exact (StableHlo.binary_result _ _ _ _ _ _ _ _).trans (Tiles0.final (V3 m ρ) c).symm
  · exact HloOp.result_of_not_mem _ _ (by
      rw [StableHlo.binary_writes, Finset.mem_singleton]; exact fun e => hb 2 e.symm)

/-- The second region leaves what the dot_general of the hidden layer and W2 leaves. -/
theorem region1 (c : Dev nD) : W7 m ρ c = dotOp1.result (W6 m ρ c) := by
  unfold W7
  refine withArrays_eq_of spec1 launch1.win.arr_inj c _ _ _ (fun w => ?_) (fun b hb => ?_)
  · match w with
    | ⟨0, _⟩ =>
      exact (StableHlo.binary_result_ne _ _ _ _ _ _ _ _ (show main_v47 ≠ main_v48 by decide)).trans
        (((dat1 (V6 m ρ) c).arrAt_in 0 rfl _).trans (A_eq1 (V6 m ρ) c 0)).symm
    | ⟨1, _⟩ =>
      exact (StableHlo.binary_result_ne _ _ _ _ _ _ _ _ (show main_arg4 ≠ main_v48 by decide)).trans
        (((dat1 (V6 m ρ) c).arrAt_in 1 rfl _).trans (A_eq1 (V6 m ρ) c 1)).symm
    | ⟨2, _⟩ =>
      exact (StableHlo.binary_result _ _ _ _ _ _ _ _).trans (Tiles1.final (V6 m ρ) c).symm
  · exact HloOp.result_of_not_mem _ _ (by
      rw [StableHlo.binary_writes, Finset.mem_singleton]; exact fun e => hb 2 e.symm)

/-- The third region leaves what the dot_general of x and Ws leaves. -/
theorem region2 (c : Dev nD) : W9 m ρ c = dotOp2.result (W8 m ρ c) := by
  unfold W9
  refine withArrays_eq_of spec2 launch2.win.arr_inj c _ _ _ (fun w => ?_) (fun b hb => ?_)
  · match w with
    | ⟨0, _⟩ =>
      exact (StableHlo.binary_result_ne _ _ _ _ _ _ _ _ (show main_arg0 ≠ main_v65 by decide)).trans
        (((dat2 (V8 m ρ) c).arrAt_in 0 rfl _).trans (A_eq2 (V8 m ρ) c 0)).symm
    | ⟨1, _⟩ =>
      exact (StableHlo.binary_result_ne _ _ _ _ _ _ _ _ (show main_arg6 ≠ main_v65 by decide)).trans
        (((dat2 (V8 m ρ) c).arrAt_in 1 rfl _).trans (A_eq2 (V8 m ρ) c 1)).symm
    | ⟨2, _⟩ =>
      exact (StableHlo.binary_result _ _ _ _ _ _ _ _).trans (Tiles2.final (V8 m ρ) c).symm
  · exact HloOp.result_of_not_mem _ _ (by
      rw [StableHlo.binary_writes, Finset.mem_singleton]; exact fun e => hb 2 e.symm)

/-- The contents at the last segment boundary are the fold of those operations over the launch contents. -/
theorem W11_eq (c : Dev nD) : W11 m ρ c = StableHlo.after opsK (W0 m ρ c) := by
  show StableHlo.after hostOps3_1 (StableHlo.after hostOps3 (W9 m ρ c)) = _
  rw [region2 m ρ c]
  show StableHlo.after hostOps3_1 (StableHlo.after hostOps3 (dotOp2.result (StableHlo.after hostOps2 (W7 m ρ c)))) = _
  rw [region1 m ρ c]
  show StableHlo.after hostOps3_1 (StableHlo.after hostOps3 (dotOp2.result (StableHlo.after hostOps2 (dotOp1.result
    (StableHlo.after hostOps1_1 (StableHlo.after hostOps1 (W4 m ρ c))))))) = _
  rw [region0 m ρ c]
  simp only [after_append, StableHlo.after_cons]

end Cert.KernelIdeal.Whole

end
-- ==== Proof.RefKept.lean ====
/-
  The reference's operations write no argument.

  Each of the reference's 103 host operations writes its own result buffer, and none of those is an argument's: after the
  whole line every argument buffer holds what it held at launch.
-/
import proofs.«151512_j51616916963797_1_alg».proof.Proof.RefRun

set_option maxRecDepth 16384

noncomputable section

namespace Cert.ReferenceIdeal.Kept

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxHeartbeats 4000000 in
theorem arg0 : after (ValueP.ops (F := F)) V (Proc.devRef .tc main_arg0) = V (Proc.devRef .tc main_arg0) := by
  after_results_simp
set_option maxHeartbeats 4000000 in
theorem arg1 : after (ValueP.ops (F := F)) V (Proc.devRef .tc main_arg1) = V (Proc.devRef .tc main_arg1) := by
  after_results_simp
set_option maxHeartbeats 4000000 in
theorem arg2 : after (ValueP.ops (F := F)) V (Proc.devRef .tc main_arg2) = V (Proc.devRef .tc main_arg2) := by
  after_results_simp
set_option maxHeartbeats 4000000 in
theorem arg3 : after (ValueP.ops (F := F)) V (Proc.devRef .tc main_arg3) = V (Proc.devRef .tc main_arg3) := by
  after_results_simp
set_option maxHeartbeats 4000000 in
theorem arg4 : after (ValueP.ops (F := F)) V (Proc.devRef .tc main_arg4) = V (Proc.devRef .tc main_arg4) := by
  after_results_simp
set_option maxHeartbeats 4000000 in
theorem arg5 : after (ValueP.ops (F := F)) V (Proc.devRef .tc main_arg5) = V (Proc.devRef .tc main_arg5) := by
  after_results_simp
set_option maxHeartbeats 4000000 in
theorem arg6 : after (ValueP.ops (F := F)) V (Proc.devRef .tc main_arg6) = V (Proc.devRef .tc main_arg6) := by
  after_results_simp
set_option maxHeartbeats 4000000 in
theorem arg7 : after (ValueP.ops (F := F)) V (Proc.devRef .tc main_arg7) = V (Proc.devRef .tc main_arg7) := by
  after_results_simp

end Cert.ReferenceIdeal.Kept

end
-- ==== Proof.Bridge.lean ====
/-
  The two programs compute one function of the arguments.

  With a dot_general in each pallas_call's place the idealized kernel is a straight line of host operations, and it is
  the reference's line: the same edge bookkeeping (source and destination lists with the self-loops appended, degrees by
  scatter-add, the symmetric normalisation), the same gather / scale / scatter-add around each product, the same bias,
  relu, skip branch and log-softmax, operation for operation, over buffers of the same shapes. Only the signatures differ
  (the kernel's also holds the staging buffers), so the two folds are compared as values: first the seven operations that
  build the two index lists from the edge array, then everything after them over the index lists and the arguments.
-/
import proofs.«151512_j51616916963797_1_alg».proof.Proof.KernelOps
import proofs.«151512_j51616916963797_1_alg».proof.Proof.RefRun
import proofs.«151512_j51616916963797_1_alg».proof.Proof.LibRegionAsOp

set_option maxRecDepth 16384

noncomputable section

namespace Cert.Bridge

open Idealize.ShloMosaic Idealize.ShloMosaic.TcCoe Idealize.SL.Sem
open Cert.LibRegionAsOp

local notation "τK" => Cert.KernelIdeal.τ
local notation "sigK" => Cert.KernelIdeal.sig
local notation "τR" => Cert.ReferenceIdeal.τ
local notation "sigR" => Cert.ReferenceIdeal.sig

/-- The kernel's first stretch of host operations, and the reference's whole line. -/
abbrev h0K : List (HloOp τK sigK (Elt Ideal)) := Cert.KernelIdeal.Gen.hostOps0 (F := Ideal)
abbrev opsR : List (HloOp τR sigR (Elt Ideal)) := Cert.ReferenceIdeal.ValueP.ops (F := Ideal)

variable (VK : Valuation τK sigK (Elt Ideal)) (VR : Valuation τR sigR (Elt Ideal))

/-- The source list (edge sources, then every node once) is the same function of the edge array in both programs. -/
theorem prefix_v3 (h1 : VK (Proc.devRef .tc Cert.KernelIdeal.main_arg1) = VR (Proc.devRef .tc Cert.ReferenceIdeal.main_arg1)) :
    StableHlo.after (h0K.take 7) VK (Proc.devRef .tc Cert.KernelIdeal.main_v3)
      = StableHlo.after (opsR.take 7) VR (Proc.devRef .tc Cert.ReferenceIdeal.main_v3) := by
  simp only [List.take_succ_cons, List.take_zero]
  after_results
  rw [h1]
  rfl

/-- The destination list likewise. -/
theorem prefix_v6 (h1 : VK (Proc.devRef .tc Cert.KernelIdeal.main_arg1) = VR (Proc.devRef .tc Cert.ReferenceIdeal.main_arg1)) :
    StableHlo.after (h0K.take 7) VK (Proc.devRef .tc Cert.KernelIdeal.main_v6)
      = StableHlo.after (opsR.take 7) VR (Proc.devRef .tc Cert.ReferenceIdeal.main_v6) := by
  simp only [List.take_succ_cons, List.take_zero]
  after_results
  rw [h1]
  rfl

/-- The seven operations write no argument. -/
theorem prefix_argK0 : StableHlo.after (h0K.take 7) VK (Proc.devRef .tc Cert.KernelIdeal.main_arg0) = VK (Proc.devRef .tc Cert.KernelIdeal.main_arg0) := by
  simp only [List.take_succ_cons, List.take_zero]
  after_results
theorem prefix_argR0 : StableHlo.after (opsR.take 7) VR (Proc.devRef .tc Cert.ReferenceIdeal.main_arg0) = VR (Proc.devRef .tc Cert.ReferenceIdeal.main_arg0) := by
  simp only [List.take_succ_cons, List.take_zero]
  after_results
theorem prefix_argK2 : StableHlo.after (h0K.take 7) VK (Proc.devRef .tc Cert.KernelIdeal.main_arg2) = VK (Proc.devRef .tc Cert.KernelIdeal.main_arg2) := by
  simp only [List.take_succ_cons, List.take_zero]
  after_results
theorem prefix_argR2 : StableHlo.after (opsR.take 7) VR (Proc.devRef .tc Cert.ReferenceIdeal.main_arg2) = VR (Proc.devRef .tc Cert.ReferenceIdeal.main_arg2) := by
  simp only [List.take_succ_cons, List.take_zero]
  after_results
theorem prefix_argK3 : StableHlo.after (h0K.take 7) VK (Proc.devRef .tc Cert.KernelIdeal.main_arg3) = VK (Proc.devRef .tc Cert.KernelIdeal.main_arg3) := by
  simp only [List.take_succ_cons, List.take_zero]
  after_results
theorem prefix_argR3 : StableHlo.after (opsR.take 7) VR (Proc.devRef .tc Cert.ReferenceIdeal.main_arg3) = VR (Proc.devRef .tc Cert.ReferenceIdeal.main_arg3) := by
  simp only [List.take_succ_cons, List.take_zero]
  after_results
theorem prefix_argK4 : StableHlo.after (h0K.take 7) VK (Proc.devRef .tc Cert.KernelIdeal.main_arg4) = VK (Proc.devRef .tc Cert.KernelIdeal.main_arg4) := by
  simp only [List.take_succ_cons, List.take_zero]
  after_results
theorem prefix_argR4 : StableHlo.after (opsR.take 7) VR (Proc.devRef .tc Cert.ReferenceIdeal.main_arg4) = VR (Proc.devRef .tc Cert.ReferenceIdeal.main_arg4) := by
  simp only [List.take_succ_cons, List.take_zero]
  after_results
theorem prefix_argK5 : StableHlo.after (h0K.take 7) VK (Proc.devRef .tc Cert.KernelIdeal.main_arg5) = VK (Proc.devRef .tc Cert.KernelIdeal.main_arg5) := by
  simp only [List.take_succ_cons, List.take_zero]
  after_results
theorem prefix_argR5 : StableHlo.after (opsR.take 7) VR (Proc.devRef .tc Cert.ReferenceIdeal.main_arg5) = VR (Proc.devRef .tc Cert.ReferenceIdeal.main_arg5) := by
  simp only [List.take_succ_cons, List.take_zero]
  after_results
theorem prefix_argK6 : StableHlo.after (h0K.take 7) VK (Proc.devRef .tc Cert.KernelIdeal.main_arg6) = VK (Proc.devRef .tc Cert.KernelIdeal.main_arg6) := by
  simp only [List.take_succ_cons, List.take_zero]
  after_results
theorem prefix_argR6 : StableHlo.after (opsR.take 7) VR (Proc.devRef .tc Cert.ReferenceIdeal.main_arg6) = VR (Proc.devRef .tc Cert.ReferenceIdeal.main_arg6) := by
  simp only [List.take_succ_cons, List.take_zero]
  after_results
theorem prefix_argK7 : StableHlo.after (h0K.take 7) VK (Proc.devRef .tc Cert.KernelIdeal.main_arg7) = VK (Proc.devRef .tc Cert.KernelIdeal.main_arg7) := by
  simp only [List.take_succ_cons, List.take_zero]
  after_results
theorem prefix_argR7 : StableHlo.after (opsR.take 7) VR (Proc.devRef .tc Cert.ReferenceIdeal.main_arg7) = VR (Proc.devRef .tc Cert.ReferenceIdeal.main_arg7) := by
  simp only [List.take_succ_cons, List.take_zero]
  after_results

set_option maxHeartbeats 40000000 in
/-- Everything after the index lists: from contents that agree on the two lists and on the float arguments, the kernel's
    remaining operations (a dot_general in each pallas_call's place) and the reference's leave the same result. -/
theorem tail_eq
    (h3 : VK (Proc.devRef .tc Cert.KernelIdeal.main_v3) = VR (Proc.devRef .tc Cert.ReferenceIdeal.main_v3))
    (h6 : VK (Proc.devRef .tc Cert.KernelIdeal.main_v6) = VR (Proc.devRef .tc Cert.ReferenceIdeal.main_v6))
    (ha0 : VK (Proc.devRef .tc Cert.KernelIdeal.main_arg0) = VR (Proc.devRef .tc Cert.ReferenceIdeal.main_arg0))
    (ha2 : VK (Proc.devRef .tc Cert.KernelIdeal.main_arg2) = VR (Proc.devRef .tc Cert.ReferenceIdeal.main_arg2))
    (ha3 : VK (Proc.devRef .tc Cert.KernelIdeal.main_arg3) = VR (Proc.devRef .tc Cert.ReferenceIdeal.main_arg3))
    (ha4 : VK (Proc.devRef .tc Cert.KernelIdeal.main_arg4) = VR (Proc.devRef .tc Cert.ReferenceIdeal.main_arg4))
    (ha5 : VK (Proc.devRef .tc Cert.KernelIdeal.main_arg5) = VR (Proc.devRef .tc Cert.ReferenceIdeal.main_arg5))
    (ha6 : VK (Proc.devRef .tc Cert.KernelIdeal.main_arg6) = VR (Proc.devRef .tc Cert.ReferenceIdeal.main_arg6))
    (ha7 : VK (Proc.devRef .tc Cert.KernelIdeal.main_arg7) = VR (Proc.devRef .tc Cert.ReferenceIdeal.main_arg7)) :
    StableHlo.after (h0K.drop 7 ++ Cert.KernelIdeal.Whole.tailK) VK (Proc.devRef .tc Cert.KernelIdeal.main_v70)
      = StableHlo.after (opsR.drop 7) VR (Proc.devRef .tc Cert.ReferenceIdeal.main_v70) := by
  simp (disch := decide) only [after_append, List.drop_succ_cons, List.drop_zero, StableHlo.after_cons, StableHlo.after_nil,
    StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rw [h3, h6, ha0, ha2, ha3, ha4, ha5, ha6, ha7]
  rfl

/-- From contents that agree on the eight arguments, the kernel's line of operations (a dot_general in each
    pallas_call's place) and the reference's leave the same result. -/
theorem result_eq
    (h1 : VK (Proc.devRef .tc Cert.KernelIdeal.main_arg1) = VR (Proc.devRef .tc Cert.ReferenceIdeal.main_arg1))
    (ha0 : VK (Proc.devRef .tc Cert.KernelIdeal.main_arg0) = VR (Proc.devRef .tc Cert.ReferenceIdeal.main_arg0))
    (ha2 : VK (Proc.devRef .tc Cert.KernelIdeal.main_arg2) = VR (Proc.devRef .tc Cert.ReferenceIdeal.main_arg2))
    (ha3 : VK (Proc.devRef .tc Cert.KernelIdeal.main_arg3) = VR (Proc.devRef .tc Cert.ReferenceIdeal.main_arg3))
    (ha4 : VK (Proc.devRef .tc Cert.KernelIdeal.main_arg4) = VR (Proc.devRef .tc Cert.ReferenceIdeal.main_arg4))
    (ha5 : VK (Proc.devRef .tc Cert.KernelIdeal.main_arg5) = VR (Proc.devRef .tc Cert.ReferenceIdeal.main_arg5))
    (ha6 : VK (Proc.devRef .tc Cert.KernelIdeal.main_arg6) = VR (Proc.devRef .tc Cert.ReferenceIdeal.main_arg6))
    (ha7 : VK (Proc.devRef .tc Cert.KernelIdeal.main_arg7) = VR (Proc.devRef .tc Cert.ReferenceIdeal.main_arg7)) :
    StableHlo.after Cert.KernelIdeal.Whole.opsK VK (Proc.devRef .tc Cert.KernelIdeal.main_v70)
      = StableHlo.after opsR VR (Proc.devRef .tc Cert.ReferenceIdeal.main_v70) := by
  have eK : Cert.KernelIdeal.Whole.opsK = h0K.take 7 ++ (h0K.drop 7 ++ Cert.KernelIdeal.Whole.tailK) := by
    rw [← List.append_assoc, List.take_append_drop]
  have eR : opsR = opsR.take 7 ++ opsR.drop 7 := (List.take_append_drop 7 _).symm
  refine ((congrArg (fun l => StableHlo.after l VK (Proc.devRef .tc Cert.KernelIdeal.main_v70)) eK).trans ?_).trans
    (congrArg (fun l => StableHlo.after l VR (Proc.devRef .tc Cert.ReferenceIdeal.main_v70)) eR).symm
  have hK := congrFun (after_append (h0K.take 7) (h0K.drop 7 ++ Cert.KernelIdeal.Whole.tailK) VK)
    (Proc.devRef .tc Cert.KernelIdeal.main_v70)
  have hR := congrFun (after_append (opsR.take 7) (opsR.drop 7) VR) (Proc.devRef .tc Cert.ReferenceIdeal.main_v70)
  exact hK.trans ((tail_eq _ _ (prefix_v3 VK VR h1) (prefix_v6 VK VR h1)
    ((prefix_argK0 VK).trans (ha0.trans (prefix_argR0 VR).symm))
    ((prefix_argK2 VK).trans (ha2.trans (prefix_argR2 VR).symm))
    ((prefix_argK3 VK).trans (ha3.trans (prefix_argR3 VR).symm))
    ((prefix_argK4 VK).trans (ha4.trans (prefix_argR4 VR).symm))
    ((prefix_argK5 VK).trans (ha5.trans (prefix_argR5 VR).symm))
    ((prefix_argK6 VK).trans (ha6.trans (prefix_argR6 VR).symm))
    ((prefix_argK7 VK).trans (ha7.trans (prefix_argR7 VR).symm))).trans hR.symm)

end Cert.Bridge

end
-- ==== Proof.lean ====
/-
  SkipGCN: a two-layer graph convolution with symmetric normalisation and self-loops, a relu between the layers, a linear
  skip branch and a row-wise log-softmax, over 100000 nodes and 1600000 edges.

  The kernel and the reference do the same host work — the edge bookkeeping, the gather / scale / scatter-add around each
  dense transform, the biases, relu, the skip branch's sum and the log-softmax — and differ only in the three dense
  transforms x · W1, h1 · W2 and x · Ws: the reference writes each as one dot_general, the kernel as a pallas_call that
  walks the 100000 rows in 50 tiles of 2000, rounding both operands to bf16 and accumulating in f32. At the ideal values the
  rounding is no change and a tile's entry (p, q) is the sum over l of lhs (2000·t + p, l) · rhs (l, q), the same sum the
  dot_general denotes at that row, so each pallas_call leaves in its output buffer exactly what the dot_general would
  (Tiles0, Tiles1, Tiles2) and touches no other buffer. The kernel's run (KernelRun) therefore ends with its result at
  the fold of one straight line of host operations over the launch contents (KernelFold), and that line is the
  reference's, operation for operation (Bridge). No law beyond re-indexing the contraction sum is used: nothing needs the
  inputs finite. The ideal pass rewrote nothing, so the idealization claim is trivial; the three frames are the generated
  frame certificates and, for the reference, its run with the result dropped.
-/
import proofs.«151512_j51616916963797_1_alg».proof.Defs
import proofs.«151512_j51616916963797_1_alg».proof.Proof.Gen.Kernel
import proofs.«151512_j51616916963797_1_alg».proof.Proof.Gen.Kernel.Frame
import proofs.«151512_j51616916963797_1_alg».proof.Proof.Gen.KernelIdeal
import proofs.«151512_j51616916963797_1_alg».proof.Proof.Gen.KernelIdeal.Frame
import proofs.«151512_j51616916963797_1_alg».proof.Proof.Gen.ReferenceIdeal
import proofs.«151512_j51616916963797_1_alg».proof.Proof.Gen.Pre_finite_inputs
import proofs.«151512_j51616916963797_1_alg».proof.Proof.KernelRun
import proofs.«151512_j51616916963797_1_alg».proof.Proof.KernelFold
import proofs.«151512_j51616916963797_1_alg».proof.Proof.RefRun
import proofs.«151512_j51616916963797_1_alg».proof.Proof.RefKept
import proofs.«151512_j51616916963797_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, every buffer at the fold of its operations, read at the arguments, which no
    operation writes. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.Kept.arg0 _),
     (h c Cert.ReferenceIdeal.main_arg1).trans (Cert.ReferenceIdeal.Kept.arg1 _),
     (h c Cert.ReferenceIdeal.main_arg2).trans (Cert.ReferenceIdeal.Kept.arg2 _),
     (h c Cert.ReferenceIdeal.main_arg3).trans (Cert.ReferenceIdeal.Kept.arg3 _),
     (h c Cert.ReferenceIdeal.main_arg4).trans (Cert.ReferenceIdeal.Kept.arg4 _),
     (h c Cert.ReferenceIdeal.main_arg5).trans (Cert.ReferenceIdeal.Kept.arg5 _),
     (h c Cert.ReferenceIdeal.main_arg6).trans (Cert.ReferenceIdeal.Kept.arg6 _),
     (h c Cert.ReferenceIdeal.main_arg7).trans (Cert.ReferenceIdeal.Kept.arg7 _)⟩)
    (Cert.ReferenceIdeal.ValueP.run (F := Ideal) m ρ)

/-- The ideal pass rewrote no operation. -/
theorem preserves : Cert.preserves_Kernel_KernelIdeal := trivial

/-- From memories agreeing on the arguments both idealized programs run, and end with the same result: the kernel's at
    the fold of its line of operations with a dot_general in each pallas_call's place, the reference's at the fold of
    its own line, and the two folds agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run_value (F := Ideal) m ρ, ?_⟩
  refine (θ_run Cert.ReferenceIdeal.defs _ _).mono (fun _ h c =>
    ⟨(h c Cert.ReferenceIdeal.main_v70).trans ?_,
     (h c Cert.ReferenceIdeal.main_arg0).trans (Cert.ReferenceIdeal.Kept.arg0 _),
     (h c Cert.ReferenceIdeal.main_arg1).trans (Cert.ReferenceIdeal.Kept.arg1 _),
     (h c Cert.ReferenceIdeal.main_arg2).trans (Cert.ReferenceIdeal.Kept.arg2 _),
     (h c Cert.ReferenceIdeal.main_arg3).trans (Cert.ReferenceIdeal.Kept.arg3 _),
     (h c Cert.ReferenceIdeal.main_arg4).trans (Cert.ReferenceIdeal.Kept.arg4 _),
     (h c Cert.ReferenceIdeal.main_arg5).trans (Cert.ReferenceIdeal.Kept.arg5 _),
     (h c Cert.ReferenceIdeal.main_arg6).trans (Cert.ReferenceIdeal.Kept.arg6 _),
     (h c Cert.ReferenceIdeal.main_arg7).trans (Cert.ReferenceIdeal.Kept.arg7 _)⟩)
    (Cert.ReferenceIdeal.ValueP.run (F := Ideal) m' ρ')
  obtain ⟨e0, e1, e2, e3, e4, e5, e6, e7⟩ := hagree c
  refine Eq.symm ((congrFun (Cert.KernelIdeal.Whole.W11_eq m ρ c) _).trans ?_)
  exact Cert.Bridge.result_eq (Cert.KernelIdeal.Gen.W0 m ρ c) (StableHlo.launchContents m' c)
    e1.symm e0.symm e2.symm e3.symm e4.symm e5.symm e6.symm e7.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
